-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S50000x1 : Shape := ⟨2, ![50000, 1]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S50000x1 : S_.BroadcastsInDim S50000x1 (![] : Fin 0 → Fin S50000x1.rank)
  reducesTo_S50000x1_S_d0_1 : S50000x1.ReducesTo [0, 1] S_

variable [Facts]

def fn_part1 {F : FTy → Type} [FloatOps F] (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  main_v18

def fn {F : FTy → Type} [FloatOps F] (main_arg0 : FVec F S50000x64 .f32) (main_arg1 : FVec F S64x64 .f32) (main_arg2 : FVec F S64 .f32) (main_arg3 : FVec F S50000x1 .f32) (main_arg4 : IVec S800000 32) (main_arg5 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_v13 main_v16
-- ==== Kernel.lean ====
abbrev S50000x64 : Shape := ⟨2, ![50000, 64]⟩
abbrev S64x64 : Shape := ⟨2, ![64, 64]⟩
abbrev S64 : Shape := ⟨1, ![64]⟩
abbrev S50000x1 : Shape := ⟨2, ![50000, 1]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S2000x64 : Shape := ⟨2, ![2000, 64]⟩
abbrev S2000x1 : Shape := ⟨2, ![2000, 1]⟩

abbrev nBuf : Space → Nat
  | .hbm => 21
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S50000x1, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | .hbm, ⟨19, _⟩ => ⟨S1x64, .f32⟩
  | .hbm, ⟨20, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S2000x1, .f32⟩
  | .local _ .vmem, ⟨7, _⟩ => ⟨S2000x1, .f32⟩
  | .local _ .vmem, ⟨8, _⟩ => ⟨S2000x64, .f32⟩
  | .local _ .vmem, ⟨9, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  broadcasts_S2000x1_S2000x64 : S2000x1.Broadcasts S2000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v9) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S50000x1 : Shape := ⟨2, ![50000, 1]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S50000x1, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | .hbm, ⟨19, _⟩ => ⟨S50000x64, .f32⟩
  | .hbm, ⟨20, _⟩ => ⟨S50000x64, .f32⟩
  | .hbm, ⟨21, _⟩ => ⟨S1x64, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.NodeUpdate.lean ====
/-
  One graph-network layer on 50000 nodes with 64 features, as ONE function of its arrays.

  Given the aggregate `agg` of the neighbours' features (one row per node), the node features `x`, a 64 × 64
  weight matrix `w`, a bias row `bias` and one degree per node `deg`, the layer's output at node `r` and
  feature `c` is

      max ( ( Σ_k (agg[r, k] + x[r, k]) · w[k, c]  +  bias[c] ) / deg[r] , 0 )

  on the extended reals: the residual sum, the projection, the bias, the normalisation by the degree and the
  rectifier, in that order. The quotient is the extended reals' `Ideal.div` and the sum over `k` an unordered
  finite sum, so nothing in this expression depends on how a program tiles the rows or orders the products.
  The aggregate enters as an array of its own: how it is computed from `x` and the edge lists is no part of
  this function.
-/
import Idealize.ShloMosaic.PureOps.Ideal
import Idealize.ShloMosaic.Lib.ValueIdx

noncomputable section

namespace Cert.NodeUpdate

open Idealize.ShloMosaic Idealize.ShloMosaic.ValueIdx

/-- The layer's output at node `r`, feature `c`: the row `r` of `agg + x` against the column `c` of `w`, plus
    the bias at `c`, over the degree of `r`, and the larger of that and zero. -/
def entry (agg x : FVec Ideal ⟨2, ![50000, 64]⟩ .f32) (w : FVec Ideal ⟨2, ![64, 64]⟩ .f32)
    (bias : FVec Ideal ⟨1, ![64]⟩ .f32) (deg : FVec Ideal ⟨2, ![50000, 1]⟩ .f32) (r : Fin 50000) (c : Fin 64) : EReal :=
  max (Ideal.div ((∑ k : Fin 64, (agg (ix2 r k) + x (ix2 r k)) * w (ix2 k c)) + bias (ix1 c)) (deg (ix2 r (0 : Fin 1))))
    (Ideal.ofBits .f32 0x00000000#32)

/-- The whole output array: `entry` at each index's two coordinates. -/
def update (agg x : FVec Ideal ⟨2, ![50000, 64]⟩ .f32) (w : FVec Ideal ⟨2, ![64, 64]⟩ .f32)
    (bias : FVec Ideal ⟨1, ![64]⟩ .f32) (deg : FVec Ideal ⟨2, ![50000, 1]⟩ .f32) : FVec Ideal ⟨2, ![50000, 64]⟩ .f32 :=
  fun i => entry agg x w bias deg (i 0) (i 1)

/-- The array at the index with coordinates `(r, c)` is the entry there. -/
theorem update_ix2 (agg x : FVec Ideal ⟨2, ![50000, 64]⟩ .f32) (w : FVec Ideal ⟨2, ![64, 64]⟩ .f32)
    (bias : FVec Ideal ⟨1, ![64]⟩ .f32) (deg : FVec Ideal ⟨2, ![50000, 1]⟩ .f32) (r : Fin 50000) (c : Fin 64) :
    update agg x w bias deg (ix2 r c) = entry agg x w bias deg r c := rfl

end Cert.NodeUpdate

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.BodyAtIndex.lean ====
/-
  What the kernel body computes, at one index of its output block.

  The body works on a block of 2000 rows. It adds the aggregate block and the feature block, rounds the sum and the
  weights to a narrower float format (at the extended reals a change of format is the identity), multiplies the two
  with a zero accumulator, adds the bias row broadcast over the rows, divides by the degree column broadcast over
  the features, and keeps the larger of that and zero. A matrix product into a zero accumulator, read at `(p, q)`,
  is the sum over the contracted index `k` of the left operand at `(p, k)` times the right at `(k, q)`; a row
  `[1, 64]` broadcast over the rows reads `(0, q)`; a column `[2000, 1]` broadcast over the features reads `(p, 0)`.
-/
import proofs.«133480_j45423574123238_1_alg».proof.Proof.Gen.KernelIdeal.Skeleton
import proofs.«133480_j45423574123238_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

/-- The product's left operand index at output `(p, q)` has first coordinate `p`: the first axis of the left operand
    is the one that is not contracted. -/
theorem lhs_row (i : S2000x64.Idx) (κ : dot_S2000x64_S64x64_S2000x64_1_0_0_1_n_n.contr.Idx) :
    (dot_S2000x64_S64x64_S2000x64_1_0_0_1_n_n.lhsIdx i κ 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- The right operand's index has second coordinate `q`. -/
theorem rhs_col (i : S2000x64.Idx) (κ : dot_S2000x64_S64x64_S2000x64_1_0_0_1_n_n.contr.Idx) :
    (dot_S2000x64_S64x64_S2000x64_1_0_0_1_n_n.rhsIdx i κ 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The body's matrix product into the zero accumulator, at `(p, q)`: row `p` of the left operand against column `q`
    of the right. -/
theorem matmul_at {φ₁ φ₂ : FTy} (l : FVec Ideal S2000x64 φ₁) (r : FVec Ideal S64x64 φ₂) (p : Fin 2000) (q : Fin 64) :
    matmul (F := Ideal) dot_S2000x64_S64x64_S2000x64_1_0_0_1_n_n none l r (constant S2000x64 .f32 0x00000000#32) (ix2 p q)
      = ∑ k : Fin 64, l (ix2 p k) * r (ix2 k q) := by
  simp only [matmul]
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k :=
    funext fun a => Fin.ext (by
      match a with
      | ⟨0, _⟩ => exact lhs_row _ _
      | ⟨1, _⟩ => exact (dot_S2000x64_S64x64_S2000x64_1_0_0_1_n_n.lhsIdx_val_of_single rfl _ _).trans hk)
  have er : dot_S2000x64_S64x64_S2000x64_1_0_0_1_n_n.rhsIdx (ix2 p q)
      ((contrEquiv1 dot_S2000x64_S64x64_S2000x64_1_0_0_1_n_n 64 rfl rfl).symm k) = ix2 k q :=
    funext fun a => Fin.ext (by
      match a with
      | ⟨0, _⟩ => exact (dot_S2000x64_S64x64_S2000x64_1_0_0_1_n_n.rhsIdx_val_of_single rfl _ _).trans hk
      | ⟨1, _⟩ => exact rhs_col _ _)
  rw [el, er]

/-- The body's result at `(p, q)` of its block, from the five blocks it loads: the aggregate block `a`, the feature
    block `x`, the weights `w`, the bias row `b` and the degree column `d`. -/
theorem body_at (a x : Vec Ideal S2000x64 .f32) (w : Vec Ideal S64x64 .f32) (b : Vec Ideal S1x64 .f32)
    (d : Vec Ideal S2000x1 .f32) (p : Fin 2000) (q : Fin 64) :
    k0_pay1 (F := Ideal) a x w b d (ix2 p q)
      = max (Ideal.div ((∑ k : Fin 64, (a (ix2 p k) + x (ix2 p k)) * w (ix2 k q)) + b (ix2 (0 : Fin 1) q))
          (d (ix2 p (0 : Fin 1)))) (Ideal.ofBits .f32 0x00000000#32) := by
  unfold k0_pay1
  rw [maximumf_apply, divf_apply, addf_apply, matmul_at, broadcastTo_1b_ab_apply,
    Cert.ColumnForms.broadcastTo_a1_ab_apply, broadcast_apply]
  simp only [truncf_apply, addf_apply, shapeCast_self]
  rfl

end Cert.KernelIdeal.Body

end
-- ==== Proof.HostArrays.lean ====
/-
  The two arrays the region reads that the host computed before it.

  The first operand of the kernel call is the neighbour aggregate: every edge's source row of `x` is gathered
  (a negative source index first wrapped by the number of nodes), and the gathered rows are added into an all-zero
  array at the edges' destination rows. It is named here as ONE function `aggregate` of `x` and the two edge lists
  and is never opened: both programs compute it by the same operations.
  The fourth operand is the bias recast from `[64]` to the one-row shape `[1, 64]`: at `(0, q)` it is the bias at `q`.
-/
import proofs.«133480_j45423574123238_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostArrays

open Cert.KernelIdeal Cert.KernelIdeal.Gen
open Idealize.ShloMosaic Idealize.ShloMosaic.TcCoe Idealize.SL.Sem Idealize.ShloMosaic.StableHlo Idealize.ShloMosaic.ValueIdx

/-- The neighbour aggregate: the rows of `x` at the edges' sources, summed into the edges' destination rows,
    starting from zero. -/
def aggregate (x : (⟨S50000x64, .f32⟩ : BufTy).Contents (Elt Ideal)) (src dst : (⟨S800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt Ideal) ℓ)

/-- The region finds, as its first operand, the aggregate of the launch contents of `x` and the edge lists. -/
theorem V_aggregate (c : Dev nD) :
    (V m c main_v9 : S50000x64.Idx → EReal)
      = aggregate (m ((c : Thread nD τ).loc main_arg0)) (m ((c : Thread nD τ).loc main_arg4)) (m ((c : Thread nD τ).loc main_arg5)) := by
  dsimp only [Gen.V, Gen.hostOps0]
  after_results
  rfl

/-- The region finds, as its fourth operand, the bias recast to one row. -/
theorem V_bias_row (c : Dev nD) :
    (V m c main_v10 : S1x64.Idx → EReal) = shapeCast S1x64 (m ((c : Thread nD τ).loc main_arg2)) shapeCasts_S64_S1x64 := by
  dsimp only [Gen.V, Gen.hostOps0]
  after_results
  rfl

/-- That row at `(0, q)` is the bias at `q`. -/
theorem bias_row_at (c : Dev nD) (q : Fin 64) :
    V m c main_v10 (ix2 (0 : Fin 1) q) = m ((c : Thread nD τ).loc main_arg2) (ix1 q) := by
  rw [V_bias_row]
  exact shapeCast_a_1a_apply _ shapeCasts_S64_S1x64 (0 : Fin 1) q

end Cert.KernelIdeal.HostArrays

end
-- ==== Proof.BlockReads.lean ====
/-
  Which rows of the arrays each grid point's blocks are.

  The kernel runs at 25 grid points. At point `t` the aggregate, the features, the degree column and the output
  are staged in blocks of 2000 rows starting at row `2000·t`; the weight matrix and the bias row are staged whole
  at every point. A block's coordinate along an axis is always the block's index on that axis times the block's
  extent plus the coordinate inside the block, so row `p` of a moving block at point `t` is node `2000·t + p`,
  and nothing moves along the feature axis.
-/
import proofs.«133480_j45423574123238_1_alg».proof.Proof.Gen.KernelIdeal.Value
import proofs.«133480_j45423574123238_1_alg».proof.Proof.HostArrays

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

/-- Every access of the body starts at the origin of its buffer. -/
theorem origin : (![0, 0] : Fin 2 → Nat) = fun _ => 0 := funext fun a => by fin_cases a <;> rfl

/-- The printed index maps over the 25 points: the aggregate, `x`, the degree column and the output move with the
    point along the rows; the weights and the bias row stay; no window moves along the second axis. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- There are 25 points. -/
theorem point_lt (t : Fin cfg0.N) : t.val < 25 := lt_of_lt_of_eq t.isLt N_0

/-- The node that row `p` of point `t`'s block is. -/
def node (t : Fin cfg0.N) (p : Fin 2000) : Fin 50000 := ⟨t.val * 2000 + p.val, by have := point_lt t; omega⟩

/-! ## Where an index of a block sits in its array -/

/-- Index `(p, k)` of the aggregate block at point `t` is index `(node t p, k)` of the aggregate. -/
theorem aggregate_index (t : Fin cfg0.N) (p : Fin 2000) (k : Fin 64) :
    ((cfg0.win 0).blk t).view.emb (ix2 p k) = ix2 (node t p) k := by
  obtain ⟨e0, e1, -⟩ := block_indices t
  funext a; apply Fin.ext
  match a with
  | ⟨0, _⟩ => show win0_0.index t (0 : Fin 2) * 2000 + 1 * p.val = t.val * 2000 + p.val; omega
  | ⟨1, _⟩ => show win0_0.index t (1 : Fin 2) * 64 + 1 * k.val = k.val; omega

/-- Index `(p, k)` of the feature block at point `t` is index `(node t p, k)` of `x`. -/
theorem feature_index (t : Fin cfg0.N) (p : Fin 2000) (k : Fin 64) :
    ((cfg0.win 1).blk t).view.emb (ix2 p k) = ix2 (node t p) k := by
  obtain ⟨-, -, e0, e1, -⟩ := block_indices t
  funext a; apply Fin.ext
  match a with
  | ⟨0, _⟩ => show win0_1.index t (0 : Fin 2) * 2000 + 1 * p.val = t.val * 2000 + p.val; omega
  | ⟨1, _⟩ => show win0_1.index t (1 : Fin 2) * 64 + 1 * k.val = k.val; omega

/-- The weight block at every point is the whole weight matrix. -/
theorem weight_index (t : Fin cfg0.N) (k q : Fin 64) :
    ((cfg0.win 2).blk t).view.emb (ix2 k q) = ix2 k q := by
  obtain ⟨-, -, -, -, e0, e1, -⟩ := block_indices t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The bias block at every point is the whole bias row. -/
theorem bias_index (t : Fin cfg0.N) (q : Fin 64) :
    ((cfg0.win 3).blk t).view.emb (ix2 (0 : Fin 1) q) = ix2 (0 : Fin 1) q := by
  obtain ⟨-, -, -, -, -, -, e0, e1, -⟩ := block_indices t
  funext a; apply Fin.ext
  match a with
  | ⟨0, _⟩ => show win0_3.index t (0 : Fin 2) * 1 + 1 * 0 = 0; omega
  | ⟨1, _⟩ => show win0_3.index t (1 : Fin 2) * 64 + 1 * q.val = q.val; omega

/-- Index `(p, 0)` of the degree block at point `t` is index `(node t p, 0)` of the degree column. -/
theorem degree_index (t : Fin cfg0.N) (p : Fin 2000) :
    ((cfg0.win 4).blk t).view.emb (ix2 p (0 : Fin 1)) = ix2 (node t p) (0 : Fin 1) := by
  obtain ⟨-, -, -, -, -, -, -, -, e0, e1, -⟩ := block_indices t
  funext a; apply Fin.ext
  match a with
  | ⟨0, _⟩ => show win0_4.index t (0 : Fin 2) * 2000 + 1 * p.val = t.val * 2000 + p.val; omega
  | ⟨1, _⟩ => show win0_4.index t (1 : Fin 2) * 1 + 1 * 0 = 0; omega

/-- Index `(p, q)` of the output block at point `t` is index `(node t p, q)` of the output array. -/
theorem output_index (t : Fin cfg0.N) (p : Fin 2000) (q : Fin 64) :
    ((cfg0.win 5).blk t).view.emb (ix2 p q) = ix2 (node t p) q := by
  obtain ⟨-, -, -, -, -, -, -, -, -, -, e0, e1⟩ := block_indices t
  funext a; apply Fin.ext
  match a with
  | ⟨0, _⟩ => show win0_5.index t (0 : Fin 2) * 2000 + 1 * p.val = t.val * 2000 + p.val; omega
  | ⟨1, _⟩ => show win0_5.index t (1 : Fin 2) * 64 + 1 * q.val = q.val; omega

/-! ## Reading an array through a block

  Stated for an ARBITRARY array `A`: reading `A` through a window's block at an index of the block is `A` at the
  index where that element sits. Nothing here depends on what the array holds. -/

/-- Through the aggregate window's block at point `t`. -/
theorem read_aggregate_window (A : (⟨S50000x64, .f32⟩ : BufTy).Contents (Elt Ideal)) (t : Fin cfg0.N) (p : Fin 2000) (k : Fin 64) :
    ((cfg0.win 0).blk t).view.read (Elt Ideal) A (ix2 p k) = A (ix2 (node t p) k) := by
  show A (((cfg0.win 0).blk t).view.emb (ix2 p k)) = A (ix2 (node t p) k)
  rw [aggregate_index]

/-- Through the feature window's block at point `t`. -/
theorem read_feature_window (A : (⟨S50000x64, .f32⟩ : BufTy).Contents (Elt Ideal)) (t : Fin cfg0.N) (p : Fin 2000) (k : Fin 64) :
    ((cfg0.win 1).blk t).view.read (Elt Ideal) A (ix2 p k) = A (ix2 (node t p) k) := by
  show A (((cfg0.win 1).blk t).view.emb (ix2 p k)) = A (ix2 (node t p) k)
  rw [feature_index]

/-- Through the weight window's block, which is the whole matrix. -/
theorem read_weight_window (A : (⟨S64x64, .f32⟩ : BufTy).Contents (Elt Ideal)) (t : Fin cfg0.N) (k q : Fin 64) :
    ((cfg0.win 2).blk t).view.read (Elt Ideal) A (ix2 k q) = A (ix2 k q) := by
  show A (((cfg0.win 2).blk t).view.emb (ix2 k q)) = A (ix2 k q)
  rw [weight_index]

/-- Through the bias window's block, which is the whole row. -/
theorem read_bias_window (A : (⟨S1x64, .f32⟩ : BufTy).Contents (Elt Ideal)) (t : Fin cfg0.N) (q : Fin 64) :
    ((cfg0.win 3).blk t).view.read (Elt Ideal) A (ix2 (0 : Fin 1) q) = A (ix2 (0 : Fin 1) q) := by
  show A (((cfg0.win 3).blk t).view.emb (ix2 (0 : Fin 1) q)) = A (ix2 (0 : Fin 1) q)
  rw [bias_index]

/-- Through the degree window's block at point `t`. -/
theorem read_degree_window (A : (⟨S50000x1, .f32⟩ : BufTy).Contents (Elt Ideal)) (t : Fin cfg0.N) (p : Fin 2000) :
    ((cfg0.win 4).blk t).view.read (Elt Ideal) A (ix2 p (0 : Fin 1)) = A (ix2 (node t p) (0 : Fin 1)) := by
  show A (((cfg0.win 4).blk t).view.emb (ix2 p (0 : Fin 1))) = A (ix2 (node t p) (0 : Fin 1))
  rw [degree_index]

/-- Through the output window's block at point `t`. -/
theorem read_output_window (G : (⟨S50000x64, .f32⟩ : BufTy).Contents (Elt Ideal)) (t : Fin cfg0.N) (p : Fin 2000) (q : Fin 64) :
    ((cfg0.win 5).blk t).view.read (Elt Ideal) G (ix2 p q) = G (ix2 (node t p) q) := by
  show G (((cfg0.win 5).blk t).view.emb (ix2 p q)) = G (ix2 (node t p) q)
  rw [output_index]

/-- The output window's blocks tile the array, so what is written back of a block is the whole block. -/
theorem whole_block_written (X : Vec Ideal S2000x64 .f32) (t : Fin cfg0.N) :
    (cfg0.win 5).cut (grid0.coords t) X = X := rfl

/-! ## Each input block of the run, in the launch contents -/

variable (m : (ℓ : Loc nD τ sig) → Buf (Elt Ideal) ℓ)

/-- Row `p` of the aggregate block at point `t` is row `node t p` of the aggregate of the launch contents. -/
theorem aggregate_block (c : Dev nD) (t : Fin cfg0.N) (p : Fin 2000) (k : Fin 64) :
    iblk m c 0 t (ix2 p k)
      = HostArrays.aggregate (m ((c : Thread nD τ).loc main_arg0)) (m ((c : Thread nD τ).loc main_arg4))
          (m ((c : Thread nD τ).loc main_arg5)) (ix2 (node t p) k) := by
  unfold iblk
  exact (read_aggregate_window (V m c (Pipeline.arrRef spec0 0)) t p k).trans (congrFun (HostArrays.V_aggregate m c) _)

/-- Row `p` of the feature block at point `t` is row `node t p` of `x` as launched. -/
theorem feature_block (c : Dev nD) (t : Fin cfg0.N) (p : Fin 2000) (k : Fin 64) :
    iblk m c 1 t (ix2 p k) = m ((c : Thread nD τ).loc main_arg0) (ix2 (node t p) k) := by
  unfold iblk
  exact (read_feature_window (V m c (Pipeline.arrRef spec0 1)) t p k).trans (congrFun (V_main_arg0 m c) _)

/-- The weight block at every point reads the weight matrix as launched. -/
theorem weight_block (c : Dev nD) (t : Fin cfg0.N) (k q : Fin 64) :
    iblk m c 2 t (ix2 k q) = m ((c : Thread nD τ).loc main_arg1) (ix2 k q) := by
  unfold iblk
  exact (read_weight_window (V m c (Pipeline.arrRef spec0 2)) t k q).trans (congrFun (V_main_arg1 m c) _)

/-- The bias block at every point reads the bias row, which at `(0, q)` is the bias at `q` as launched. -/
theorem bias_block (c : Dev nD) (t : Fin cfg0.N) (q : Fin 64) :
    iblk m c 3 t (ix2 (0 : Fin 1) q) = m ((c : Thread nD τ).loc main_arg2) (ix1 q) := by
  unfold iblk
  exact (read_bias_window (V m c (Pipeline.arrRef spec0 3)) t q).trans (HostArrays.bias_row_at m c q)

/-- Row `p` of the degree block at point `t` is the degree of `node t p` as launched. -/
theorem degree_block (c : Dev nD) (t : Fin cfg0.N) (p : Fin 2000) :
    iblk m c 4 t (ix2 p (0 : Fin 1)) = m ((c : Thread nD τ).loc main_arg3) (ix2 (node t p) (0 : Fin 1)) := by
  unfold iblk
  exact (read_degree_window (V m c (Pipeline.arrRef spec0 4)) t p).trans (congrFun (V_main_arg3 m c) _)

end Cert.KernelIdeal.Whole

end
-- ==== Proof.BlocksToArray.lean ====
/-
  From the 25 blocks the kernel writes to the whole output array.

  The kernel runs at 25 grid points. Point `t` reads rows `2000·t … 2000·t + 1999` of the aggregate, of `x` and of
  the degree column, the whole weight matrix and the whole bias row, and writes rows `2000·t … 2000·t + 1999` of
  the output. By `Body.body_at`, what it writes at `(p, q)` of its block is the layer function's entry at node
  `2000·t + p`, feature `q`: a node's output depends on that node's own rows only, so each block is the
  restriction of ONE whole-array function, `NodeUpdate.update`. Every node `r` lies in the block of point
  `r / 2000`, so the blocks cover the array and the array after the run is that function of the arguments.
-/
import proofs.«133480_j45423574123238_1_alg».proof.Proof.Gen.KernelIdeal.Value
import proofs.«133480_j45423574123238_1_alg».proof.Proof.NodeUpdate
import proofs.«133480_j45423574123238_1_alg».proof.Proof.BodyAtIndex
import proofs.«133480_j45423574123238_1_alg».proof.Proof.HostArrays
import proofs.«133480_j45423574123238_1_alg».proof.Proof.BlockReads

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes back, the cover, and the array after the run -/

/-- The layer function of the launch contents: of the aggregate of `x` and the edge lists, and the float arguments. -/
abbrev layer (c : Dev nD) : (⟨S50000x64, .f32⟩ : BufTy).Contents (Elt Ideal) :=
  Cert.NodeUpdate.update
    (HostArrays.aggregate (m ((c : Thread nD τ).loc main_arg0)) (m ((c : Thread nD τ).loc main_arg4)) (m ((c : Thread nD τ).loc main_arg5)))
    (m ((c : Thread nD τ).loc main_arg0)) (m ((c : Thread nD τ).loc main_arg1))
    (m ((c : Thread nD τ).loc main_arg2)) (m ((c : Thread nD τ).loc main_arg3))

/-- WHAT POINT `t` WRITES BACK is block `t` of the layer function of the launch contents: at `(p, q)` of the block the
    body's result (`Body.body_at`) is the layer's entry at node `2000·t + p`, each loaded block read where that node's
    rows sit. -/
theorem flushed_eq (c : Dev nD) (t : Fin cfg0.N) :
    (dats m 0 c).flushed 5 t = ((cfg0.win 5).blk t).view.read (Elt Ideal) (layer m c) := by
  rw [Value.flushed5]
  unfold out0_5
  rw [View.canon_unit_zero origin]
  simp only [View.ld_unit_zero (S := S2000x64) origin, View.ld_unit_zero (S := S64x64) origin,
    View.ld_unit_zero (S := S1x64) origin, View.ld_unit_zero (S := S2000x1) origin]
  rw [whole_block_written]
  funext j
  obtain ⟨p, q, rfl⟩ : ∃ (p : Fin 2000) (q : Fin 64), j = ix2 p q := ⟨j 0, j 1, eq_ix2 j⟩
  rw [read_output_window]
  unfold layer
  rw [Cert.NodeUpdate.update_ix2]
  refine (Body.body_at (iblk m c 0 t) (iblk m c 1 t) (iblk m c 2 t) (iblk m c 3 t) (iblk m c 4 t) p q).trans ?_
  unfold Cert.NodeUpdate.entry
  simp only [aggregate_block, feature_block, weight_block, bias_block, degree_block]

/-- An index of the array is in point `t`'s block iff each coordinate is in the block's range on its axis. -/
theorem mem_block (t : Fin cfg0.N) (i : S50000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v11).slice (win0_5.rect t)).set ↔ _
  rw [View.set_slice_whole, Rect.mem_set_unit]
  exact Iff.rfl

/-- THE COVER: node `r` is written by point `r / 2000`. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 25 := N_0
  have hlt : (i 0).val / 2000 < cfg0.N := by omega
  obtain ⟨-, -, -, -, -, -, -, -, -, -, e0, e1⟩ := block_indices ⟨(i 0).val / 2000, hlt⟩
  refine ⟨⟨(i 0).val / 2000, hlt⟩, flush0_5 _, ?_⟩
  rw [mem_block]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    have e0' : win0_5.index ⟨(i 0).val / 2000, hlt⟩ (0 : Fin 2) = (i 0).val / 2000 := e0
    omega
  | ⟨1, _⟩ =>
    show win0_5.index ⟨(i 0).val / 2000, hlt⟩ (1 : Fin 2) * 64 ≤ (i 1).val
      ∧ (i 1).val < win0_5.index ⟨(i 0).val / 2000, hlt⟩ (1 : Fin 2) * 64 + 64
    omega

/-- THE ARRAY after the run: the layer function of the launch contents. -/
theorem final (c : Dev nD) : (dats m 0 c).arrAt 5 cfg0.N = layer m c :=
  (dats m 0 c).arrAt_eq_of_cover 5 (layer m c) (fun t _ => flushed_eq m c t) covered

/-! ## The run, read -/

/-- Every weakly fair execution of the kernel program terminates with the result array at the layer function of
    the arguments, the arguments unchanged. -/
theorem run : θ_run defs (onTc (τ := τ) (main (F := Ideal))) ⟨m, fun _ => 0, ρ⟩ fun r => ∀ c : Dev nD,
      r.2.mem ((c : Thread nD τ).loc main_v11) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefIsNodeUpdate.lean ====
/-
  The reference computes the layer function `NodeUpdate.update`.

  Read one operation at a time, the reference's last stage at the index `(p, q)` is: the larger of zero and the
  quotient, by the degree broadcast along the features, of the `dot_general` of `aggregate + x` with the weights
  plus the bias broadcast along the nodes. Its `dot_general` contracts the second axis of the left operand with the
  first of the right, so its element at `(p, q)` is the sum over `k` of the left operand at `(p, k)` times the
  right at `(k, q)`; the two bias broadcasts together read the bias at `q`; the degree broadcast reads the degree
  column at `(p, 0)`. That is `NodeUpdate.entry` at `(p, q)`, with the aggregate the stage the reference's
  gather and scatter-add leave (which is not opened here).
-/
import proofs.«133480_j45423574123238_1_alg».proof.Proof.Gen.ReferenceIdeal.Read
import proofs.«133480_j45423574123238_1_alg».proof.Proof.NodeUpdate

noncomputable section

namespace Cert.ReferenceIdeal.RefValue

open Cert.ReferenceIdeal Cert.ReferenceIdeal.Gen Cert.ReferenceIdeal.Read
open Idealize.ShloMosaic Idealize.ShloMosaic.ValueIdx

/-- The left operand's index of the product at `(p, q)`, contraction index `k`: row `p`, column `k`. -/
theorem lidx_eq (p : Fin 50000) (q k : Fin 64) : lidx_main_v11 (ix2 p q) k = ix2 p k :=
  funext fun a => Fin.ext (by match a with | ⟨0, _⟩ => rfl | ⟨1, _⟩ => rfl)

/-- The right operand's: row `k`, column `q`. -/
theorem ridx_eq (p : Fin 50000) (q k : Fin 64) : ridx_main_v11 (ix2 p q) k = ix2 k q :=
  funext fun a => Fin.ext (by match a with | ⟨0, _⟩ => rfl | ⟨1, _⟩ => rfl)

/-- The bias broadcast to a row and then along the nodes reads, at `(p, q)`, the bias at `q`. -/
theorem bias_idx_eq (p : Fin 50000) (q : Fin 64) : idx_main_v12 (idx_main_v13 (ix2 p q)) = ix1 q :=
  funext fun a => Fin.ext (by match a with | ⟨0, _⟩ => rfl)

/-- The degree column broadcast along the features reads, at `(p, q)`, the column at `(p, 0)`. -/
theorem deg_idx_eq (p : Fin 50000) (q : Fin 64) : idx_main_v15 (ix2 p q) = ix2 p (0 : Fin 1) :=
  funext fun a => Fin.ext (by match a with | ⟨0, _⟩ => rfl | ⟨1, _⟩ => rfl)

/-- The reference's result stage is the layer function of the aggregate stage and the four float arguments. -/
theorem result_eq (x0 : (⟨S50000x64, .f32⟩ : BufTy).Contents (Elt Ideal)) (x1 : (⟨S64x64, .f32⟩ : BufTy).Contents (Elt Ideal))
    (x2 : (⟨S64, .f32⟩ : BufTy).Contents (Elt Ideal)) (x3 : (⟨S50000x1, .f32⟩ : BufTy).Contents (Elt Ideal))
    (x4 x5 : (⟨S800000, .i32⟩ : BufTy).Contents (Elt Ideal)) :
    val_main_v17 (F := Ideal) x0 x1 x2 x3 x4 x5
      = Cert.NodeUpdate.update (val_main_v9 (F := Ideal) x0 x4 x5) x0 x1 x2 x3 := by
  funext i
  obtain ⟨p, q, rfl⟩ : ∃ (p : Fin 50000) (q : Fin 64), i = ix2 p q := ⟨i 0, i 1, eq_ix2 i⟩
  rw [Cert.NodeUpdate.update_ix2, val_main_v17_apply, val_main_v16_apply, val_main_v14_apply, val_main_v11_apply,
    val_main_v13_apply, val_main_v12_apply, val_main_v15_apply, val_main_call0_v0_apply, val_main_call0_cst_apply]
  rw [bias_idx_eq, deg_idx_eq]
  have hsum : (∑ k : Fin 64, val_main_v10 (F := Ideal) x0 x4 x5 (lidx_main_v11 (ix2 p q) k) * x1 (ridx_main_v11 (ix2 p q) k))
      = ∑ k : Fin 64, (val_main_v9 (F := Ideal) x0 x4 x5 (ix2 p k) + x0 (ix2 p k)) * x1 (ix2 k q) :=
    Finset.sum_congr rfl fun k _ => by rw [lidx_eq, ridx_eq, val_main_v10_apply]; rfl
  rw [hsum]
  unfold Cert.NodeUpdate.entry
  simp only [Ideal.maximumf_def, Ideal.hostDivf_def, Ideal.addf_def, Ideal.ofBits_def]

end Cert.ReferenceIdeal.RefValue

end
-- ==== Proof.SameAggregate.lean ====
/-
  Both programs compute the neighbour aggregate by the same operations.

  Before anything else each program wraps a negative edge source by the number of nodes, gathers the source rows
  of `x`, and scatter-adds them into zeros at the destination rows, with the same dimension numbers and the same
  literals. So the stage the reference's scatter-add leaves and the array the kernel program hands its kernel as
  first operand are the same term of `x` and the edge lists: the equation holds by unfolding the two names.
-/
import proofs.«133480_j45423574123238_1_alg».proof.Proof.HostArrays
import proofs.«133480_j45423574123238_1_alg».proof.Proof.Gen.ReferenceIdeal.Read

noncomputable section

namespace Cert.Proof.Aggregate

open Idealize.ShloMosaic

/-- The reference's aggregate stage is the kernel program's aggregate array, as functions of `x` and the edge lists. -/
theorem same (x : (⟨Cert.KernelIdeal.S50000x64, .f32⟩ : BufTy).Contents (Elt Ideal))
    (src dst : (⟨Cert.KernelIdeal.S800000, .i32⟩ : BufTy).Contents (Elt Ideal)) :
    Cert.ReferenceIdeal.Read.val_main_v9 (F := Ideal) x src dst = Cert.KernelIdeal.HostArrays.aggregate x src dst := rfl

end Cert.Proof.Aggregate

end
-- ==== Proof.lean ====
/-
  A graph-network layer on 50000 nodes with 64 features: the kernel program against its reference, on the extended reals.

  Both programs first form the neighbour aggregate `agg` on the host (gather the edges' source rows of `x`, add
  them into the destination rows) by the same operations, and then compute, for node `r` and feature `c`,

      max ( ( Σ_k (agg[r, k] + x[r, k]) · w[k, c]  +  bias[c] ) / deg[r] , 0 ).

  The reference does this with whole-array host operations. The kernel program does it in one kernel over 25 blocks
  of 2000 rows: a node's output depends only on that node's rows of `agg`, `x` and `deg`, so each block the
  kernel writes is the restriction of the whole-array function, and the blocks cover the array. The kernel rounds
  the operands of its matrix product to a narrower format, which at the extended reals is the identity, and a
  product into a zero accumulator is the same unordered sum over `k` as the reference's `dot_general`. No algebraic
  law is needed beyond that, so the precondition (finite inputs) is never opened.

  The frames of the two kernel programs are the generated ones; the reference's frame is its generated run with the
  result dropped; the idealisation rewrote nothing, so `preserves` is `True`.
-/
import proofs.«133480_j45423574123238_1_alg».proof.Defs
import proofs.«133480_j45423574123238_1_alg».proof.Proof.Gen.Kernel
import proofs.«133480_j45423574123238_1_alg».proof.Proof.Gen.Kernel.Skeleton
import proofs.«133480_j45423574123238_1_alg».proof.Proof.Gen.Kernel.Launch
import proofs.«133480_j45423574123238_1_alg».proof.Proof.Gen.Kernel.Points
import proofs.«133480_j45423574123238_1_alg».proof.Proof.Gen.Kernel.Frame
import proofs.«133480_j45423574123238_1_alg».proof.Proof.Gen.KernelIdeal
import proofs.«133480_j45423574123238_1_alg».proof.Proof.Gen.KernelIdeal.Skeleton
import proofs.«133480_j45423574123238_1_alg».proof.Proof.Gen.KernelIdeal.Launch
import proofs.«133480_j45423574123238_1_alg».proof.Proof.Gen.KernelIdeal.Points
import proofs.«133480_j45423574123238_1_alg».proof.Proof.Gen.KernelIdeal.Frame
import proofs.«133480_j45423574123238_1_alg».proof.Proof.Gen.ReferenceIdeal
import proofs.«133480_j45423574123238_1_alg».proof.Proof.Gen.KernelIdeal.Value
import proofs.«133480_j45423574123238_1_alg».proof.Proof.Gen.ReferenceIdeal.Run
import proofs.«133480_j45423574123238_1_alg».proof.Proof.Gen.ReferenceIdeal.Read
import proofs.«133480_j45423574123238_1_alg».proof.Proof.Gen.Pre_finite_inputs
import proofs.«133480_j45423574123238_1_alg».proof.Proof.BlocksToArray
import proofs.«133480_j45423574123238_1_alg».proof.Proof.RefIsNodeUpdate
import proofs.«133480_j45423574123238_1_alg».proof.Proof.SameAggregate
import Idealize.ShloMosaic.Adequacy
import Idealize.ShloMosaic.Init

noncomputable section

namespace Cert.Proof

open Idealize.ShloMosaic Idealize.SL.Sem

/-- The word-level kernel program runs and leaves its arguments unchanged: its generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments, the kernel program's result array is the layer function of the
    aggregate and the arguments (`Whole.run`), and the reference's result stage is the same function of its own
    aggregate stage (`RefValue.result_eq`); the two aggregates are one term (`Aggregate.same`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, Cert.Proof.Aggregate.same,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
